-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x4096x4096 : Shape := ⟨4, ![1, 1, 4096, 4096]⟩
abbrev S_ : Shape := ⟨0, ![]⟩

class Facts : Prop where
  bcast_S_S1x1x4096x4096 : S_.BroadcastsInDim S1x1x4096x4096 (![] : Fin 0 → Fin S1x1x4096x4096.rank)
  reducesTo_S1x1x4096x4096_S_d0_1_2_3 : S1x1x4096x4096.ReducesTo [0, 1, 2, 3] S_
  h_S_ : 0 < S_.numel

variable [Facts]

def fn {F : FTy → Type} [FloatOps F] (main_arg0 : FVec F S1x1x4096x4096 .f32) : IVec S_ 1 :=
  let main_v0 : FVec F S1x1x4096x4096 .f32 := Host.absf main_arg0
  let main_cst : FVec F S_ .f32 := constant S_ .f32 0x7F800000#32
  let main_v1 : FVec F S1x1x4096x4096 .f32 := broadcastInDim S1x1x4096x4096 ![] bcast_S_S1x1x4096x4096 main_cst
  let main_v2 : IVec S1x1x4096x4096 1 := cmpf .olt main_v0 main_v1
  let main_c : IVec S_ 1 := constantI S_ 1 1#1
  let main_v3 : IVec S_ 1 := (fun x v => Host.reduce IntOp.andi x v reducesTo_S1x1x4096x4096_S_d0_1_2_3 h_S_) main_v2 main_c
  main_v3
-- ==== Kernel.lean ====
abbrev S1x1x4096x4096 : Shape := ⟨4, ![1, 1, 4096, 4096]⟩
abbrev S_ : Shape := ⟨0, ![]⟩
abbrev S1x1x4096x4110 : Shape := ⟨4, ![1, 1, 4096, 4110]⟩
abbrev S4096x4110 : Shape := ⟨2, ![4096, 4110]⟩
abbrev S4096x4096 : Shape := ⟨2, ![4096, 4096]⟩
abbrev S128x4110 : Shape := ⟨2, ![128, 4110]⟩
abbrev S128x4096 : Shape := ⟨2, ![128, 4096]⟩

abbrev nBuf : Space → Nat
  | .hbm => 7
  | .vmem => 4
  | .smem => 0
  | _ => 0

abbrev bufTy : (tb : Table) → Fin (tcTables nBuf tb) → BufTy
  | .hbm, ⟨0, _⟩ => ⟨S1x1x4096x4096, .f32⟩
  | .hbm, ⟨1, _⟩ => ⟨S_, .f32⟩
  | .hbm, ⟨2, _⟩ => ⟨S_, .f32⟩
  | .hbm, ⟨3, _⟩ => ⟨S1x1x4096x4110, .f32⟩
  | .hbm, ⟨4, _⟩ => ⟨S4096x4110, .f32⟩
  | .hbm, ⟨5, _⟩ => ⟨S4096x4096, .f32⟩
  | .hbm, ⟨6, _⟩ => ⟨S1x1x4096x4096, .f32⟩
  | .local _ .vmem, ⟨0, _⟩ => ⟨S128x4110, .f32⟩
  | .local _ .vmem, ⟨1, _⟩ => ⟨S128x4110, .f32⟩
  | .local _ .vmem, ⟨2, _⟩ => ⟨S128x4096, .f32⟩
  | .local _ .vmem, ⟨3, _⟩ => ⟨S128x4096, .f32⟩
  | _, _ => ⟨S1x1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4110 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S1x1x4096x4096_S1x1x4096x4110_000_000_000_770 : S1x1x4096x4096.Pads (![0, 0, 0, 7] : Fin 4 → Nat) ![0, 0, 0, 7] ![0, 0, 0, 0] S1x1x4096x4110
  h_S_ : 0 < S_.numel
  shapeCasts_S1x1x4096x4110_S4096x4110 : S1x1x4096x4110.ShapeCasts S4096x4110
  inb_S128x4110_S128x4110_0_0 : ∀ a, (![0, 0] : Fin 2 → Nat) a + S128x4110.size a ≤ S128x4110.size a
  h_S128x4110 : 0 < S128x4110.numel
  shapeCasts_S128x4110_S128x4110 : S128x4110.ShapeCasts S128x4110
  slices_S128x4110_o0_0_S128x4096 : S128x4110.Slices ![0, 0] S128x4096
  slices_S128x4110_o0_1_S128x4096 : S128x4110.Slices ![0, 1] S128x4096
  slices_S128x4110_o0_2_S128x4096 : S128x4110.Slices ![0, 2] S128x4096
  slices_S128x4110_o0_3_S128x4096 : S128x4110.Slices ![0, 3] S128x4096
  slices_S128x4110_o0_4_S128x4096 : S128x4110.Slices ![0, 4] S128x4096
  slices_S128x4110_o0_5_S128x4096 : S128x4110.Slices ![0, 5] S128x4096
  slices_S128x4110_o0_6_S128x4096 : S128x4110.Slices ![0, 6] S128x4096
  slices_S128x4110_o0_7_S128x4096 : S128x4110.Slices ![0, 7] S128x4096
  slices_S128x4110_o0_8_S128x4096 : S128x4110.Slices ![0, 8] S128x4096
  slices_S128x4110_o0_9_S128x4096 : S128x4110.Slices ![0, 9] S128x4096
  slices_S128x4110_o0_10_S128x4096 : S128x4110.Slices ![0, 10] S128x4096
  slices_S128x4110_o0_11_S128x4096 : S128x4110.Slices ![0, 11] S128x4096
  slices_S128x4110_o0_12_S128x4096 : S128x4110.Slices ![0, 12] S128x4096
  slices_S128x4110_o0_13_S128x4096 : S128x4110.Slices ![0, 13] S128x4096
  slices_S128x4110_o0_14_S128x4096 : S128x4110.Slices ![0, 14] S128x4096
  inb_S128x4096_S128x4096_0_0 : ∀ a, (![0, 0] : Fin 2 → Nat) a + S128x4096.size a ≤ S128x4096.size a
  h_S128x4096 : 0 < S128x4096.numel
  shapeCasts_S4096x4096_S1x1x4096x4096 : S4096x4096.ShapeCasts S1x1x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4110.size a ≤ S4096x4110.size a
  hwx0_0 : ∀ i : grid0.Coords, EltTy.bits .f32 = 32 ∨ (Rect.block (s := S4096x4110) S128x4110.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)

variable [Facts₀]

abbrev win0_0 : Pipeline.Window sig grid0 :=
  Pipeline.Window.ofSpec (Memref.whole main_v1) S128x4110.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1x1x4096x4096 : Shape := ⟨4, ![1, 1, 4096, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1x1x4096x4096, .f32⟩
  | .hbm, ⟨1, _⟩ => ⟨S_, .f32⟩
  | .hbm, ⟨2, _⟩ => ⟨S_, .f32⟩
  | .hbm, ⟨3, _⟩ => ⟨S1x1x4096x4096, .f32⟩
  | .hbm, ⟨4, _⟩ => ⟨S_, .f32⟩
  | .hbm, ⟨5, _⟩ => ⟨S1x1x4096x4096, .f32⟩
  | .hbm, ⟨6, _⟩ => ⟨S1x1x4096x4096, .f32⟩
  | _, _ => ⟨S1x1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S1x1x4096x4096_S1x1x4096x4096_w1s1p0_0_w1s1p0_0_w1s1p0_0_w15s1p7_7 : S1x1x4096x4096.ReduceWindows (![1, 1, 1, 15] : Fin 4 → Nat) ![1, 1, 1, 1] ![0, 0, 0, 7] ![0, 0, 0, 7] S1x1x4096x4096
  h_S_ : 0 < S_.numel
  bcast_S_S1x1x4096x4096 : S_.BroadcastsInDim S1x1x4096x4096 (![] : Fin 0 → Fin S1x1x4096x4096.rank)

variable [Facts₀]

class Facts : Prop extends Facts₀ where

variable [Facts]
-- ==== Proof.WindowMax.lean ====
/-
  A horizontal dilation of a 4096 × 4096 image: every pixel becomes the maximum of the fifteen pixels of its row
  centred on it, and of zero. Columns outside the image count as -∞, so they never win a maximum.

  This module states that result as ONE function of the image, over the extended reals, and proves the small facts
  both programs' values are compared through:
    * `tap x h c`      — entry `c` of row `h` of the image padded by seven columns of -∞ on each side;
    * `chain15 g`      — `max (… (max (g 0) (g 1)) …) (g 14)`, the maximum of fifteen values taken from the left;
    * `dilAt x h w`    — `max (chain15 fun n => tap x h (w + n)) 0`, the dilated pixel at row `h`, column `w`;
    * a left fold of `max` from -∞ over fifteen values is `chain15` of them, since `max ⊥ a = a`.
-/
import Idealize.ShloMosaic.PureOps.Ideal
import Idealize.ShloMosaic.PureOps.Ideal.Laws
import Idealize.ShloMosaic.Lib.ValueIdx

noncomputable section

namespace Cert.Dilation

open Idealize.ShloMosaic Idealize.ShloMosaic.ValueIdx

/-- The image: one batch, one channel, 4096 rows of 4096 columns. -/
abbrev Img : Shape := ⟨4, ![1, 1, 4096, 4096]⟩
/-- The image as a matrix of rows. -/
abbrev Mat : Shape := ⟨2, ![4096, 4096]⟩

/-- The word of -∞ denotes the least extended real. -/
theorem negInf_eq_bot : Ideal.ofBits .f32 0xFF800000#32 = (⊥ : EReal) := by
  simp [Ideal.ofBits, Ideal.ieee]

/-- Entry `c` of row `h` of the image padded by seven columns of -∞ on the left and on the right: column `c` of the
    padded row is column `c - 7` of the image when that is a column of the image, and -∞ otherwise. -/
def tap (x : Img.Idx → EReal) (h : Fin 4096) (c : ℕ) : EReal :=
  if hc : 7 ≤ c ∧ c - 7 < 4096 then x (ix4 0 0 h ⟨c - 7, hc.2⟩) else ⊥

/-- The maximum of fifteen values, taken from the left. -/
def chain15 (g : ℕ → EReal) : EReal :=
  max (max (max (max (max (max (max (max (max (max (max (max (max (max (g 0) (g 1)) (g 2)) (g 3)) (g 4)) (g 5)) (g 6))
    (g 7)) (g 8)) (g 9)) (g 10)) (g 11)) (g 12)) (g 13)) (g 14)

/-- The dilated pixel at row `h`, column `w`: the maximum of the fifteen entries `w … w + 14` of the padded row — the
    image's columns `w - 7 … w + 7` — and of zero. -/
def dilAt (x : Img.Idx → EReal) (h w : Fin 4096) : EReal :=
  max (chain15 fun n => tap x h (w.val + n)) 0

/-- The dilated image, batch and channel axes kept. -/
def dilated (x : Img.Idx → EReal) : Img.Idx → EReal := fun j => dilAt x (j 2) (j 3)

/-- The dilated image as a matrix of rows. -/
def dilatedMat (x : Img.Idx → EReal) : Mat.Idx → EReal := fun i => dilAt x (i 0) (i 1)

/-- A left fold over the first `n` numbers, re-indexed along an equality of the bound. -/
theorem foldl_finRange_cast {β : Type} {n k : ℕ} (e : n = k) (f : β → Fin n → β) (b : β) :
    (List.finRange n).foldl f b = (List.finRange k).foldl (fun r i => f r (i.cast e.symm)) b := by
  subst e; rfl

/-- The first fifteen numbers, listed. -/
theorem finRange15 : List.finRange 15 = [⟨0, by omega⟩, ⟨1, by omega⟩, ⟨2, by omega⟩, ⟨3, by omega⟩, ⟨4, by omega⟩,
    ⟨5, by omega⟩, ⟨6, by omega⟩, ⟨7, by omega⟩, ⟨8, by omega⟩, ⟨9, by omega⟩, ⟨10, by omega⟩, ⟨11, by omega⟩,
    ⟨12, by omega⟩, ⟨13, by omega⟩, ⟨14, by omega⟩] := by
  decide

/-- A left fold of `max` from -∞ over fifteen values is their maximum taken from the left: the first step,
    `max ⊥ (g 0)`, is `g 0`. -/
theorem foldl_max_bot (g : ℕ → EReal) :
    (List.finRange 15).foldl (fun r (i : Fin 15) => max r (g i.val)) ⊥ = chain15 g := by
  rw [finRange15]
  simp only [List.foldl_cons, List.foldl_nil, bot_sup_eq, max_bot_left]
  rfl

end Cert.Dilation

end
-- ==== Proof.PaddedRows.lean ====
/-
  The padded image as the kernel meets it. Before the kernel runs, the image is padded by seven columns of -∞ on each
  side of its last axis and re-laid as a matrix of 4096 rows of 4110 columns; the kernel's input block at a grid point is
  128 consecutive rows of that matrix, and its body takes fifteen slices of the block, each 4096 columns wide, at column
  offsets 0 … 14.

    * `padded_apply`  — entry (`h`, `c`) of the padded matrix is `tap x h c`;
    * `rowAt`         — entry `c` of row `r` of a 128 × 4110 block (-∞ past the block's last column);
    * `slice_apply`   — the slice at column offset `o` reads, at (`r`, `w`), the block's entry (`r`, `w + o`);
    * `unflatten_dilated` — the dilated matrix with the batch and channel axes put back is the dilated image.
-/
import Idealize.ShloMosaic.Lib.Pipeline.Value
import Idealize.ShloMosaic.Lib.KernelVsHost
import proofs.«121805_j10514079941475_2_alg».proof.Proof.WindowMax

noncomputable section

namespace Cert.Dilation

open Idealize.ShloMosaic Idealize.ShloMosaic.ValueIdx

/-- The padded image: seven more columns on each side. -/
abbrev PadImg : Shape := ⟨4, ![1, 1, 4096, 4110]⟩
/-- The padded image as a matrix of rows. -/
abbrev PadMat : Shape := ⟨2, ![4096, 4110]⟩
/-- An input block: 128 padded rows. -/
abbrev InBlk : Shape := ⟨2, ![128, 4110]⟩
/-- An output block: 128 rows of the result. -/
abbrev OutBlk : Shape := ⟨2, ![128, 4096]⟩

/-- Entry (`h`, `c`) of the padded matrix: the image's entry (`h`, `c - 7`) when column `c` is one of the image's columns
    moved seven to the right, the padding value -∞ otherwise. -/
theorem padded_apply (x : Img.Idx → EReal) {u : Shape} (v : u.Idx → EReal)
    (hp : Img.Pads ![0, 0, 0, 7] ![0, 0, 0, 7] ![0, 0, 0, 0] PadImg) (hu : 0 < u.numel)
    (hv : v (Shape.Idx.first hu) = ⊥) (hc : PadImg.ShapeCasts PadMat) (h : Fin 4096) (c : Fin 4110) :
    shapeCast PadMat (pad PadImg ![0, 0, 0, 7] ![0, 0, 0, 7] ![0, 0, 0, 0] x v hp hu) hc (ix2 h c) = tap x h c.val := by
  have hcl : c.val < 4110 := c.isLt
  rw [shapeCast_apply _ hc (ix2 h c) (ix4 0 0 h c) (by
    rw [Shape.rowMajor_val_four, Shape.rowMajor_val_two]
    show (((0 : ℕ) * 1 + 0) * 4096 + h.val) * 4110 + c.val = h.val * 4110 + c.val
    omega)]
  unfold tap
  by_cases hin : 7 ≤ c.val ∧ c.val - 7 < 4096
  · rw [dif_pos hin]
    refine pad_apply_of_inside _ _ _ x v hp hu (ix4 0 0 h c) (ix4 0 0 h ⟨c.val - 7, hin.2⟩) fun a => ?_
    match a with
    | ⟨0, _⟩ => rfl
    | ⟨1, _⟩ => rfl
    | ⟨2, _⟩ => show h.val = 0 + h.val * (0 + 1); omega
    | ⟨3, _⟩ => show c.val = 7 + (c.val - 7) * (0 + 1); omega
  · rw [dif_neg hin, pad_apply_of_not_inside _ _ _ x v hp hu (ix4 0 0 h c) 3 (by
      show ¬(7 ≤ c.val ∧ (c.val - 7) % (0 + 1) = 0 ∧ (c.val - 7) / (0 + 1) < 4096)
      omega), hv]

/-- Entry `c` of row `r` of an input block; -∞ past the block's last column. -/
def rowAt (b : InBlk.Idx → EReal) (r : Fin 128) (c : ℕ) : EReal :=
  if hc : c < 4110 then b (ix2 r ⟨c, hc⟩) else ⊥

/-- The slice of an input block at column offset `o` reads, at row `r` and column `w`, the block's entry at row `r` and
    column `w + o`. -/
theorem slice_apply (b : InBlk.Idx → EReal) (o : ℕ) (hs : InBlk.Slices ![0, o] OutBlk) (r : Fin 128) (w : Fin 4096) :
    extractStridedSlice OutBlk ![0, o] b hs (ix2 r w) = rowAt b r (w.val + o) := by
  have ho : o + 4096 ≤ 4110 := hs.2 1
  have hw : w.val < 4096 := w.isLt
  unfold rowAt
  rw [dif_pos (by omega)]
  refine extractStridedSlice_apply _ b hs (ix2 r w) _ fun a => ?_
  match a with
  | ⟨0, _⟩ => show r.val = 0 + r.val; omega
  | ⟨1, _⟩ => show w.val + o = o + w.val; omega

/-- The kernel's result is re-laid from a matrix to the image's shape: entry (0, 0, `h`, `w`) of the image is entry
    (`h`, `w`) of the matrix, the two unit axes adding nothing to a row-major position. -/
theorem unflatten_dilated (x : Img.Idx → EReal) (hc : Mat.ShapeCasts Img) :
    shapeCast Img (dilatedMat x) hc = dilated x := by
  funext j
  have j0 : (j 0).val < 1 := (j 0).isLt
  have j1 : (j 1).val < 1 := (j 1).isLt
  rw [shapeCast_apply _ hc j (ix2 (j 2) (j 3)) (by
    rw [Shape.rowMajor_val_two, Shape.rowMajor_val_four]
    show (j 2).val * 4096 + (j 3).val = (((j 0).val * 1 + (j 1).val) * 4096 + (j 2).val) * 4096 + (j 3).val
    omega)]
  rfl

end Cert.Dilation

end
-- ==== Proof.KernelBlocks.lean ====
/-
  The kernel computes the dilated image.

  Before the kernel, the image is padded by seven columns of -∞ on each side and re-laid as a 4096 × 4110 matrix
  (`entry_apply`: its entry (`h`, `c`) is `tap x h c`). The grid has 32 points; point `t` stages rows `128 t … 128 t + 127`
  of the padded matrix (`rowAt_iblk`), and its body stores, at row `r` and column `w` of the output block, the maximum from
  the left of the block's entries (`r`, `w`), …, (`r`, `w + 14`), clamped below by zero (`pay_apply`): the dilated pixel of
  row `128 t + r`, column `w`. So what point `t` writes back is block `t` of the dilated matrix (`flushed_eq`); the 32 blocks
  tile the 4096 rows (`cover`), so the output array ends holding the dilated matrix (`final`); the reshape after the kernel
  puts the two unit axes back (`tail_eq`), and the run ends with the result at the dilated image (`run`).
-/
import proofs.«121805_j10514079941475_2_alg».proof.Proof.Gen.KernelIdeal.Frame
import proofs.«121805_j10514079941475_2_alg».proof.Proof.PaddedRows
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Idealize.ShloMosaic.StableHlo Cert.Dilation

variable (m : (ℓ : Loc nD τ sig) → Buf (Elt Ideal) ℓ) (ρ : Dev nD → PrngReg)

theorem hz : (![0, 0] : Fin 2 → Nat) = fun _ => 0 := funext fun a => by fin_cases a <;> rfl

/-! ## The padded matrix the kernel reads -/

/-- The kernel's input array, as the region finds it: the image padded with the constant -∞ and re-laid as a matrix. -/
theorem entry_eq (c : Dev nD) : (V m c main_v1 : S4096x4110.Idx → EReal)
    = shapeCast S4096x4110 (pad S1x1x4096x4110 ![0, 0, 0, 7] ![0, 0, 0, 7] ![0, 0, 0, 0] (m ((c : Thread nD τ).loc main_arg0))
        (constant (F := Ideal) S_ .f32 0xFF800000#32) pads_S1x1x4096x4096_S1x1x4096x4110_000_000_000_770 h_S_)
        shapeCasts_S1x1x4096x4110_S4096x4110 := by
  dsimp only [Gen.V, Gen.V0]
  simp only [Gen.hostOps0, Gen.hostOps0_1, Gen.hostOps0_2, List.flatten_cons, List.flatten_nil, List.append_nil, List.cons_append,
    List.nil_append]
  after_results
  rfl

/-- Its entry (`h`, `k`) is entry `k` of row `h` of the padded image. -/
theorem entry_apply (c : Dev nD) (h : Fin 4096) (k : Fin 4110) :
    (V m c main_v1 : S4096x4110.Idx → EReal) (ix2 h k) = tap (m ((c : Thread nD τ).loc main_arg0)) h k.val := by
  rw [entry_eq]
  exact padded_apply _ _ _ h_S_ ((constant_apply _ _).trans negInf_eq_bot) _ h k

/-! ## The blocks -/

/-- The printed index maps over the grid: both windows' block index is the grid point on the rows, zero on the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r` of point `t`'s input block is row `128 t + r` of the padded image. -/
theorem rowAt_iblk (c : Dev nD) (t : Fin cfg0.N) (r : Fin 128) (col : ℕ) (h : Fin 4096) (hh : h.val = 128 * t.val + r.val) :
    rowAt (iblk m c 0 t : Vec Ideal S128x4110 .f32) r col = tap (m ((c : Thread nD τ).loc main_arg0)) h col := by
  obtain ⟨e0, e1, -, -⟩ := idx_facts t
  unfold rowAt
  by_cases hc : col < 4110
  · rw [dif_pos hc, ← entry_apply m c h ⟨col, hc⟩]
    unfold iblk
    rw [View.read_apply]
    show V m c main_v1 _ = V m c main_v1 _
    congr 1
    funext a
    apply Fin.ext
    match a with
    | ⟨0, _⟩ => show win0_0.index t (0 : Fin 2) * 128 + 1 * r.val = h.val; omega
    | ⟨1, _⟩ => show win0_0.index t (1 : Fin 2) * 4110 + 1 * col = col; omega
  · rw [dif_neg hc]
    unfold tap
    rw [dif_neg (by omega)]

/-- The body's stored value at row `r`, column `w` of the output block: the maximum from the left of the fifteen entries
    `w … w + 14` of row `r` of the input block, and of zero. -/
theorem pay_apply (b : Vec Ideal S128x4110 .f32) (r : Fin 128) (w : Fin 4096) :
    k0_pay1 b (ix2 r w) = max (chain15 fun n => rowAt b r (w.val + n)) 0 := by
  unfold k0_pay1
  simp only [maximumf_apply, broadcast_apply, shapeCast_self, slice_apply, Ideal.ofBits_def, Ideal.ofBits_zero_f32]
  rfl

/-- At point `t`, the stored value at an index of the output block is the dilated pixel at the index of the result matrix
    that the block puts it at. -/
theorem pay_iblk (c : Dev nD) (t : Fin cfg0.N) (y : S128x4096.Idx) (i : S4096x4096.Idx)
    (h0 : (i 0).val = 128 * t.val + (y 0).val) (h1 : (i 1).val = (y 1).val) :
    k0_pay1 (iblk m c 0 t) y = dilatedMat (m ((c : Thread nD τ).loc main_arg0)) i := by
  obtain ⟨r, w, rfl⟩ : ∃ (r : Fin 128) (w : Fin 4096), y = ix2 r w := ⟨y 0, y 1, eq_ix2 y⟩
  rw [pay_apply]
  unfold dilatedMat dilAt
  congr 2
  funext n
  rw [rowAt_iblk m c t r _ (i 0) h0, h1]

/-- What point `t` writes back is block `t` of the dilated matrix. -/
theorem flushed_eq (c : Dev nD) (t : Fin cfg0.N) :
    (dats m 0 c).flushed 1 t
      = ((cfg0.win 1).blk t).view.read (Elt Ideal) (dilatedMat (m ((c : Thread nD τ).loc main_arg0))) := by
  show (cfg0.win 1).cut (grid0.coords t) ((dats m 0 c).after 1 t) = _
  rw [after0_1]
  unfold out0_1
  rw [View.canon_unit_zero hz]
  simp only [View.ld_unit_zero (S := S128x4110) hz]
  obtain ⟨-, -, e2, e3⟩ := idx_facts t
  funext y
  show k0_pay1 (iblk m c 0 t) y = dilatedMat (m ((c : Thread nD τ).loc main_arg0)) (((cfg0.win 1).blk t).view.emb y)
  refine pay_iblk m c t y _ ?_ ?_
  · show win0_1.index t (0 : Fin 2) * 128 + 1 * (y 0).val = 128 * t.val + (y 0).val; omega
  · show win0_1.index t (1 : Fin 2) * 4096 + 1 * (y 1).val = (y 1).val; omega

/-- An index of the result matrix is in point `t`'s block iff each coordinate is in the block's range on its axis. -/
theorem mem_blk (t : Fin cfg0.N) (i : S4096x4096.Idx) :
    i ∈ ((cfg0.win 1).blk t).view.set ↔ ∀ a : Fin 2, win0_1.index t a * S128x4096.size a ≤ (i a).val
      ∧ (i a).val < win0_1.index t a * S128x4096.size a + S128x4096.size a := by
  show i ∈ ((View.whole main_v2).slice (win0_1.rect t)).set ↔ _
  rw [View.set_slice_whole, Rect.mem_set_unit]
  exact Iff.rfl

/-- Every index of the result matrix is in some point's block: row `h` is in the block of point `h / 128`. -/
theorem cover (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  have hN : cfg0.N = 32 := N_0
  have hlt : (i 0).val / 128 < cfg0.N := by rw [hN]; omega
  obtain ⟨-, -, e2, e3⟩ := idx_facts ⟨(i 0).val / 128, hlt⟩
  have e2' : win0_1.index ⟨(i 0).val / 128, hlt⟩ (0 : Fin 2) = (i 0).val / 128 := e2
  refine ⟨⟨(i 0).val / 128, hlt⟩, flush0_1 _, ?_⟩
  rw [mem_blk]
  intro a
  match a with
  | ⟨0, _⟩ =>
    show win0_1.index ⟨(i 0).val / 128, hlt⟩ (0 : Fin 2) * 128 ≤ (i 0).val
      ∧ (i 0).val < win0_1.index ⟨(i 0).val / 128, hlt⟩ (0 : Fin 2) * 128 + 128
    omega
  | ⟨1, _⟩ =>
    show win0_1.index ⟨(i 0).val / 128, hlt⟩ (1 : Fin 2) * 4096 ≤ (i 1).val
      ∧ (i 1).val < win0_1.index ⟨(i 0).val / 128, hlt⟩ (1 : Fin 2) * 4096 + 4096
    omega

/-- The output array after the run is the dilated matrix. -/
theorem final (c : Dev nD) : (dats m 0 c).arrAt 1 cfg0.N = dilatedMat (m ((c : Thread nD τ).loc main_arg0)) :=
  (dats m 0 c).arrAt_eq_of_cover 1 _ (fun t _ => flushed_eq m c t) cover

/-! ## The reshape after the kernel, and the run -/

/-- The result: the output array with its two unit axes put back is the dilated image. -/
theorem tail_eq (c : Dev nD) :
    Pipeline.afterTail₀ cfgs (dats m) 0 (V0 m) [hostOps1] c main_v3 = dilated (m ((c : Thread nD τ).loc main_arg0)) := by
  unfold Pipeline.afterTail₀
  show StableHlo.after hostOps1 _ (Proc.devRef .tc main_v3) = _
  after_results
  refine Eq.trans ?_ (unflatten_dilated (m ((c : Thread nD τ).loc main_arg0)) shapeCasts_S4096x4096_S1x1x4096x4096)
  funext j
  show shapeCast S1x1x4096x4096 (Pipeline.withArrays spec0 c (V0 m c) (fun w => (dats m 0 c).arrAt w cfg0.N)
      (Proc.devRef .tc (Pipeline.arrRef spec0 1))) shapeCasts_S4096x4096_S1x1x4096x4096 j = _
  rw [Pipeline.withArrays_arr spec0 launch0.win.arr_inj c (V0 m c) (fun w => (dats m 0 c).arrAt w cfg0.N) 1]
  dsimp only
  rw [final]

/-- Every weakly fair execution of the kernel's program terminates with the result at the dilated image and the image
    unchanged. -/
theorem run : θ_run defs (onTc (τ := τ) (main (F := Ideal))) ⟨m, fun _ => 0, ρ⟩ fun r => ∀ c : Dev nD,
      r.2.mem ((c.tc : Thread nD τ).loc main_v3) = dilated (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v3 (Pipeline.mem_restRefs_of main_v3 (by decide) (by decide))).trans (tail_eq m c),
       ((h c).2 main_arg0 (Pipeline.mem_restRefs_of main_arg0 (by decide) (by decide))).trans (W_main_arg0 m (dats m) c)⟩)
    (run_main m ρ)

end Cert.KernelIdeal.Hand

end
-- ==== Proof.HostWindow.lean ====
/-
  The host's window reduction read at a pixel. A `reduce_window` by `max` from -∞ with a window of fifteen columns,
  stride one and seven columns of padding on each side of the last axis, is at pixel (row `h`, column `w`) the left fold
  of `max` from -∞ over the fifteen window positions `n = 0 … 14`; position `n` reads the padded row at column `w + n`:
  the image's column `w + n - 7` when that is inside the image, the padding value -∞ otherwise. That is `chain15` of the
  padded row's entries `w … w + 14`.
-/
import Idealize.ShloMosaic.PureOps.Contract
import proofs.«121805_j10514079941475_2_alg».proof.Proof.WindowMax

noncomputable section

namespace Cert.Dilation

open Idealize.ShloMosaic Idealize.ShloMosaic.ValueIdx

/-- The window: one batch, one channel, one row, fifteen columns. -/
abbrev Win : Shape := ⟨4, ![1, 1, 1, 15]⟩

theorem win_numel : Win.numel = 15 := by decide

/-- Position `n` of the window, in row-major order, is column `n` of its one row. -/
theorem window_coords (n : Fin Win.numel) :
    (Win.rowMajor.symm n 0).val = 0 ∧ (Win.rowMajor.symm n 1).val = 0 ∧ (Win.rowMajor.symm n 2).val = 0
      ∧ (Win.rowMajor.symm n 3).val = n.val := by
  have e := Shape.rowMajor_val_four (Win.rowMajor.symm n)
  rw [Equiv.apply_symm_apply] at e
  have h0 : (Win.rowMajor.symm n 0).val < 1 := (Win.rowMajor.symm n 0).isLt
  have h1 : (Win.rowMajor.symm n 1).val < 1 := (Win.rowMajor.symm n 1).isLt
  have h2 : (Win.rowMajor.symm n 2).val < 1 := (Win.rowMajor.symm n 2).isLt
  have d1 : (![1, 1, 1, 15] : Fin 4 → ℕ) 1 = 1 := rfl
  have d2 : (![1, 1, 1, 15] : Fin 4 → ℕ) 2 = 1 := rfl
  have d3 : (![1, 1, 1, 15] : Fin 4 → ℕ) 3 = 15 := rfl
  rw [d1, d2, d3] at e
  omega

/-- The window reduction at a pixel is the maximum, from the left, of the fifteen entries of the padded row that the
    window covers. -/
theorem reduceWindow_max_apply (x : Img.Idx → EReal) {u : Shape} (init : u.Idx → EReal)
    (h : Img.ReduceWindows ![1, 1, 1, 15] ![1, 1, 1, 1] ![0, 0, 0, 7] ![0, 0, 0, 7] Img) (hu : 0 < u.numel)
    (hinit : init (Shape.Idx.first hu) = ⊥) (j : Img.Idx) :
    Host.reduceWindow (s := Img) (t := Img) (FloatOps.maximumf : Ideal .f32 → Ideal .f32 → Ideal .f32)
        ![1, 1, 1, 15] ![1, 1, 1, 1] ![0, 0, 0, 7] ![0, 0, 0, 7] x init h hu j
      = chain15 fun n => tap x (j 2) ((j 3).val + n) := by
  unfold Host.reduceWindow
  dsimp only
  rw [hinit, foldl_finRange_cast win_numel, ← foldl_max_bot]
  refine congrArg (fun f => List.foldl f ⊥ (List.finRange 15)) ?_
  funext r i
  show max r _ = max r _
  congr 1
  obtain ⟨k0, k1, k2, k3⟩ := window_coords (i.cast win_numel.symm)
  have ki : (i.cast win_numel.symm).val = i.val := rfl
  have j0 : (j 0).val < 1 := (j 0).isLt
  have j1 : (j 1).val < 1 := (j 1).isLt
  have j2 : (j 2).val < 4096 := (j 2).isLt
  have j3 : (j 3).val < 4096 := (j 3).isLt
  unfold tap
  by_cases hc : 7 ≤ (j 3).val + i.val ∧ (j 3).val + i.val - 7 < 4096
  · rw [dif_pos hc]
    split
    · refine congrArg x (funext fun a => Fin.ext ?_)
      match a with
      | ⟨0, _⟩ => show (j 0).val * 1 + (Win.rowMajor.symm (i.cast win_numel.symm) 0).val - 0 = 0; omega
      | ⟨1, _⟩ => show (j 1).val * 1 + (Win.rowMajor.symm (i.cast win_numel.symm) 1).val - 0 = 0; omega
      | ⟨2, _⟩ => show (j 2).val * 1 + (Win.rowMajor.symm (i.cast win_numel.symm) 2).val - 0 = (j 2).val; omega
      | ⟨3, _⟩ => show (j 3).val * 1 + (Win.rowMajor.symm (i.cast win_numel.symm) 3).val - 7 = (j 3).val + i.val - 7; omega
    · rename_i hin
      refine absurd (fun a => ?_) hin
      match a with
      | ⟨0, _⟩ => show 0 ≤ (j 0).val * 1 + (Win.rowMajor.symm (i.cast win_numel.symm) 0).val ∧ (j 0).val * 1 + (Win.rowMajor.symm (i.cast win_numel.symm) 0).val - 0 < 1; omega
      | ⟨1, _⟩ => show 0 ≤ (j 1).val * 1 + (Win.rowMajor.symm (i.cast win_numel.symm) 1).val ∧ (j 1).val * 1 + (Win.rowMajor.symm (i.cast win_numel.symm) 1).val - 0 < 1; omega
      | ⟨2, _⟩ => show 0 ≤ (j 2).val * 1 + (Win.rowMajor.symm (i.cast win_numel.symm) 2).val ∧ (j 2).val * 1 + (Win.rowMajor.symm (i.cast win_numel.symm) 2).val - 0 < 4096; omega
      | ⟨3, _⟩ => show 7 ≤ (j 3).val * 1 + (Win.rowMajor.symm (i.cast win_numel.symm) 3).val ∧ (j 3).val * 1 + (Win.rowMajor.symm (i.cast win_numel.symm) 3).val - 7 < 4096; omega
  · rw [dif_neg hc]
    split
    · rename_i hin
      have h3 : 7 ≤ (j 3).val * 1 + (Win.rowMajor.symm (i.cast win_numel.symm) 3).val ∧ (j 3).val * 1 + (Win.rowMajor.symm (i.cast win_numel.symm) 3).val - 7 < 4096 := hin 3
      exact absurd (by omega) hc
    · rfl

end Cert.Dilation

end
-- ==== Proof.ReferenceValue.lean ====
/-
  The reference computes the dilated image. Its last value is `max (reduce_window …) 0`; the window reduction starts
  from the broadcast constant -∞ and is, pixel by pixel, the maximum of the fifteen entries of the padded row under the
  window (`reduceWindow_max_apply`); the zero it is clamped against is the zero word.
-/
import proofs.«121805_j10514079941475_2_alg».proof.Proof.Gen.ReferenceIdeal.Read
import proofs.«121805_j10514079941475_2_alg».proof.Proof.HostWindow

noncomputable section

namespace Cert.ReferenceIdeal.RefValue

open Cert.ReferenceIdeal Cert.ReferenceIdeal.Gen Cert.ReferenceIdeal.Read Idealize.ShloMosaic Cert.Dilation

/-- The value the window reduction starts from, and pads with, is -∞. -/
theorem init_eq_bot : val_main_v0 (F := Ideal) (Shape.Idx.first h_S_) = (⊥ : EReal) := by
  rw [val_main_v0_apply, val_main_cst_apply]
  exact negInf_eq_bot

/-- The reference's result, as a function of the image, is the dilated image. -/
theorem result_eq (x : (⟨S1x1x4096x4096, .f32⟩ : BufTy).Contents (Elt Ideal)) :
    val_main_v3 (F := Ideal) x = dilated x := by
  funext j
  rw [val_main_v3_apply, val_main_v2_apply, val_main_cst_0_apply]
  unfold val_main_v1
  exact congrArg₂ max
    (reduceWindow_max_apply x (val_main_v0 (F := Ideal)) _ h_S_ init_eq_bot j) Ideal.ofBits_zero_f32

end Cert.ReferenceIdeal.RefValue

end
-- ==== Proof.lean ====
/-
  A horizontal dilation of a 4096 × 4096 image, kernel against reference, over the extended reals.

  Both programs compute, at every pixel, the maximum of the fifteen pixels of its row centred on it and of zero, columns
  outside the image counting as -∞ (`Cert.Dilation.dilated`, Proof/WindowMax.lean).
    * The reference does it with one window reduction by `max` from -∞, the window fifteen columns wide and the last axis
      padded by seven on each side with the initial value, followed by a maximum with zero. Read at a pixel, the window
      reduction is a left fold of `max` from -∞ over the fifteen window positions (Proof/HostWindow.lean,
      Proof/ReferenceValue.lean).
    * The kernel pads the image with -∞ first, and at each of 32 grid points takes 128 padded rows, forms the fifteen
      slices of the block at column offsets 0 … 14, takes their maximum from the left, clamps it below by zero and writes
      128 rows of the result (Proof/PaddedRows.lean, Proof/KernelBlocks.lean).
  The two agree because `max ⊥ a = a`: the fold that starts at -∞ and the chain that starts at the first slice are the same
  fifteen-term maximum. No other law of the extended reals is used, and none that needs the inputs to be finite.

  The three frames are the generated ones (the reference's is its generated run with the result dropped); the ideal pass
  rewrote nothing, so the kernel's idealization is its own text and `preserves` is trivial.
-/
import proofs.«121805_j10514079941475_2_alg».proof.Defs
import proofs.«121805_j10514079941475_2_alg».proof.Proof.Gen.Kernel
import proofs.«121805_j10514079941475_2_alg».proof.Proof.Gen.Kernel.Skeleton
import proofs.«121805_j10514079941475_2_alg».proof.Proof.Gen.Kernel.Launch
import proofs.«121805_j10514079941475_2_alg».proof.Proof.Gen.Kernel.Points
import proofs.«121805_j10514079941475_2_alg».proof.Proof.Gen.Kernel.Frame
import proofs.«121805_j10514079941475_2_alg».proof.Proof.Gen.KernelIdeal
import proofs.«121805_j10514079941475_2_alg».proof.Proof.Gen.KernelIdeal.Skeleton
import proofs.«121805_j10514079941475_2_alg».proof.Proof.Gen.KernelIdeal.Launch
import proofs.«121805_j10514079941475_2_alg».proof.Proof.Gen.KernelIdeal.Points
import proofs.«121805_j10514079941475_2_alg».proof.Proof.Gen.KernelIdeal.Frame
import proofs.«121805_j10514079941475_2_alg».proof.Proof.Gen.ReferenceIdeal
import proofs.«121805_j10514079941475_2_alg».proof.Proof.Gen.Pre_finite_inputs
import proofs.«121805_j10514079941475_2_alg».proof.Proof.Gen.ReferenceIdeal.Run
import proofs.«121805_j10514079941475_2_alg».proof.Proof.Gen.ReferenceIdeal.Read
import proofs.«121805_j10514079941475_2_alg».proof.Proof.KernelBlocks
import proofs.«121805_j10514079941475_2_alg».proof.Proof.ReferenceValue
import Idealize.ShloMosaic.Adequacy
import Idealize.ShloMosaic.Init

noncomputable section

namespace Cert.Proof

open Idealize.ShloMosaic Idealize.SL.Sem

/-- The kernel's program runs and leaves the image unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves the image unchanged: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel's program. -/
theorem preserves : Cert.preserves_Kernel_KernelIdeal := trivial

/-- Run on the same image, both programs end with the dilated image: the kernel's run says so of its result
    (`Cert.KernelIdeal.Hand.run`), and the reference's result term is the dilated image of its own argument
    (`Cert.ReferenceIdeal.RefValue.result_eq`), which is the kernel's. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
